-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn {F : FTy → Type} [FloatOps F] (main_arg0 : FVec F S8192x2048 .f32) (main_arg1 : FVec F S2048x11264 .f32) (main_arg2 : FVec F S5632x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  main_v13
-- ==== Kernel.lean ====
abbrev S8192x2048 : Shape := ⟨2, ![8192, 2048]⟩
abbrev S2048x11264 : Shape := ⟨2, ![2048, 11264]⟩
abbrev S5632x2048 : Shape := ⟨2, ![5632, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x2048, .bf16⟩
  | .hbm, ⟨4, _⟩ => ⟨S2048x11264, .bf16⟩
  | .hbm, ⟨5, _⟩ => ⟨S5632x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x2048, .bf16⟩
  | .local _ .vmem, ⟨7, _⟩ => ⟨S256x2048, .bf16⟩
  | .local _ .vmem, ⟨8, _⟩ => ⟨S1024x2048, .f32⟩
  | .local _ .vmem, ⟨9, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x11264.size a
  hwx0_1 : ∀ i : grid0.Coords, EltTy.bits .bf16 = 32 ∨ (Rect.block (s := S2048x11264) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x11264.size a
  hwx0_2 : ∀ i : grid0.Coords, EltTy.bits .bf16 = 32 ∨ (Rect.block (s := S2048x11264) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S5632x2048.size a
  hwx0_3 : ∀ i : grid0.Coords, EltTy.bits .bf16 = 32 ∨ (Rect.block (s := S5632x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x2048.size a
  hwx0_4 : ∀ i : grid0.Coords, EltTy.bits .f32 = 32 ∨ (Rect.block (s := S8192x2048) S1024x2048.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8192x11264_S8192x5632_0_0 : S8192x11264.Slices ![0, 0] S8192x5632
  slices_S8192x11264_S8192x5632_0_5632 : S8192x11264.Slices ![0, 5632] S8192x5632
  bcast_S_S8192x5632 : S_.BroadcastsInDim S8192x5632 (![] : Fin 0 → Fin S8192x5632.rank)
  dot_S8192x2048_S2048x11264_S8192x11264_1_0_0_1_n_n_wf : DotDims.WF S8192x2048 S2048x11264 S8192x11264 [1] [0] [0] [1] [] []
  dot_S8192x5632_S5632x2048_S8192x2048_1_0_0_1_n_n_wf : DotDims.WF S8192x5632 S5632x2048 S8192x2048 [1] [0] [0] [1] [] []

variable [Facts₀]

def dot_S8192x2048_S2048x11264_S8192x11264_1_0_0_1_n_n : DotDims S8192x2048 S2048x11264 S8192x11264 where
  lhsContracting := [1]
  rhsContracting := [0]
  lhsNonContracting := [0]
  rhsNonContracting := [1]
  lhsBatch := []
  rhsBatch := []
  wf := dot_S8192x2048_S2048x11264_S8192x11264_1_0_0_1_n_n_wf
def dot_S8192x5632_S5632x2048_S8192x2048_1_0_0_1_n_n : DotDims S8192x5632 S5632x2048 S8192x2048 where
  lhsContracting := [1]
  rhsContracting := [0]
  lhsNonContracting := [0]
  rhsNonContracting := [1]
  lhsBatch := []
  rhsBatch := []
  wf := dot_S8192x5632_S5632x2048_S8192x2048_1_0_0_1_n_n_wf

class Facts : Prop extends Facts₀ where

variable [Facts]
-- ==== Proof.KernelRuns.lean ====
/-
  The gated feed-forward kernel, point by point: what the region finds and what one run of the body does.

  The region is entered after three changes of float format (tokens, projection matrix, down matrix); the grid has
  8 × 22 points, point `t` = (row tile `t / 22`, run `t % 22`). The body's one branch asks whether the run is the
  first of its row tile: then the output block is first set to zero. In both cases the body then reads the token
  block, the gate and up blocks of the run, the output block, and the down block, and stores the output block with
  the run's contribution added. The two runs below say that, on whole staging buffers holding given contents, the
  body reaches its continuation with the four inputs as they were and the output buffer overwritten by the stores'
  pieces; the pieces are found by the symbolic execution.
-/
import proofs.«103557_j24970939859025_2_alg».proof.Proof.Gen.Kernel.Launch
import proofs.«103557_j24970939859025_2_alg».proof.Proof.Gen.Kernel.Skeleton
import proofs.«103557_j24970939859025_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: after the three changes of float format. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those three operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the three operations writes the tokens: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- Nor the projection matrix. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- Nor the down matrix. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch: is this the first run of the row tile? -/

/-- The branch condition as the body computes it from the grid coordinates. -/
abbrev firstRun (i : grid0.Coords) : Prop := (Scalar.cmpi .ne (Scalar.extui (Scalar.cmpi .eq (BitVec.ofNat 32 (i 1).val) 0#32)) 0#32) = 1#1
/-- It holds exactly at the points whose run number is zero. -/
theorem firstRun_iff : ∀ t : Fin cfg0.N, firstRun (grid0.coords t) ↔ t.val % 22 = 0 :=
  (by decide +kernel : ∀ t : Fin grid0.N, firstRun (grid0.coords t) ↔ t.val % 22 = 0)

/-! ## The staging buffers at a point -/

/-- One staging buffer of the output window, through which its contents are stated. -/
abbrev VO : View sig .tc .vmem S1024x2048 .f32 := (Memref.whole cc0_stg4_0 : Memref sig .tc .vmem S1024x2048 .f32).view
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .f32 := win0_4.stage (cfg0.slots t 4)
abbrev hs4 (t : Fin cfg0.N) : (ms4 t).IsWhole := hstage0_4 ((cfg0.slots t 4).cast nbuf0_4)

/-! ## One run of the body -/

set_option maxHeartbeats 1000000 in
/-- The first run of a row tile: the output buffer may hold anything; it is zeroed, then the run's contribution is
    added. The pieces the two stores leave are the witness. -/
noncomputable def runFirst (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : firstRun i)
    (x0 : Vec F S1024x2048 .bf16) (x1 : Vec F S2048x256 .bf16) (x2 : Vec F S2048x256 .bf16) (x3 : Vec F S256x2048 .bf16) :
    { L4 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- A later run of a row tile: the output buffer holds the running total `xo`; the branch is not taken, and the run's
    contribution is added to it. The piece the one store leaves is the witness. -/
noncomputable def runNext (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : ¬firstRun i)
    (x0 : Vec F S1024x2048 .bf16) (x1 : Vec F S2048x256 .bf16) (x2 : Vec F S2048x256 .bf16) (x3 : Vec F S256x2048 .bf16)
    (xo : Vec F S1024x2048 .f32) :
    { L4 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frm

end
-- ==== Proof.LibFrameShared.lean ====
/-
  The frame run of a one-region pipeline whose windows may SHARE arrays.

  A kernel may be handed one array through several input windows (a matrix whose left and right halves
  are read by two windows at different blocks). The arrays behind the windows are then not pairwise
  distinct, and the array's full share has to be dealt among the windows that read it: how, is the proof
  data's to say (its shares `q`), as one entailment from the distinct buffers behind the arrays, each whole
  at the full share at its region-entry contents, to the proof data's arrays at entry (`hsplit`).

  With that entailment, a body obligation, the host prefix of the program (`hmain`) and an invariant that
  is entered from the core's scoped rest and gives it back, every weakly fair execution terminates, every
  window's array ends at what the proof data compute for it, and every other unscoped buffer ends as the
  region found it. The kernel names no semaphore of its own; the generator register is let go.
-/
import Idealize.ShloMosaic.Lib.Pipeline.Frame

noncomputable section

namespace Cert.LibFrameShared

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

/-- What the run ends in: each window's array at the proof data's final contents, every unscoped buffer that is no
    window's array at its region-entry contents. -/
def SharedPost (V : (c : Dev nD) → (b : Ref sig .tc) → Buf Val ((c.tc : Thread nD τ).loc b)) (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = V c b

include hinj hw in
/-- The frame run, the windows' arrays possibly shared. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (SharedPost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr [H]
      · iempintro
      · iexact H)
    (hin := fun c => (show _ ⊢ (scopedRest (Ix := Unit) (Name := ℕ) (U := UR sig nD τ) (Lvl := ℕ) (Val := Val) (cfg).spec c : sProp 𝕄) from by
      iintro ⟨-, H⟩; iexact H).trans (hin c))
    (hout := fun c => (hout c).trans (by
      iintro H
      isplitr [H]
      · iempintro
      · iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h => h)

end Cert.LibFrameShared

end
-- ==== Proof.KernelFrame.lean ====
/-
  The gated feed-forward kernel's frame: it runs to the end, faults nowhere, and leaves its inputs unchanged.

  The pipeline has five windows: the token block, the gate block and the up block (both cut from the ONE projection
  matrix, at different column blocks), the down block, and the output block. The output block's staging buffer is
  the accumulator of a row tile: reset at the tile's first run, added to at every run, written back at the last.
  What it holds after each point is stated by recursion on the point (`totalAt`). The projection matrix's share is
  dealt to the two windows that read it, one half each.
-/
import proofs.«103557_j24970939859025_2_alg».proof.Proof.KernelRuns
import proofs.«103557_j24970939859025_2_alg».proof.Proof.LibFrameShared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a run leaves in the output buffer -/

/-- The first run's two stores tile the output block. -/
theorem coverFirst (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : firstRun i)
    (x0 : Vec F S1024x2048 .bf16) (x1 : Vec F S2048x256 .bf16) (x2 : Vec F S2048x256 .bf16) (x3 : Vec F S256x2048 .bf16) (y : S1024x2048.Idx) :
    ∃ pc ∈ (runFirst c i arg2 harg2 arg3 harg3 arg4 harg4 arg5 harg5 arg6 harg6 hc0 x0 x1 x2 x3).1, y ∈ pc.1.set :=
  View.cover_of_tiledL (runFirst c i arg2 harg2 arg3 harg3 arg4 harg4 arg5 harg5 arg6 harg6 hc0 x0 x1 x2 x3).1 S1024x2048.size (by sl_kernel_rfl) y

/-- What the first run leaves: its pieces read back. -/
def outFirst (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : firstRun i)
    (x0 : Vec F S1024x2048 .bf16) (x1 : Vec F S2048x256 .bf16) (x2 : Vec F S2048x256 .bf16) (x3 : Vec F S256x2048 .bf16) : Vec F S1024x2048 .f32 :=
  VO.read (Elt F) (VO.writes (Elt F) VO.junk (runFirst c i arg2 harg2 arg3 harg3 arg4 harg4 arg5 harg5 arg6 harg6 hc0 x0 x1 x2 x3).1)

/-- A later run's one store covers the output block. -/
theorem coverNext (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : ¬firstRun i)
    (x0 : Vec F S1024x2048 .bf16) (x1 : Vec F S2048x256 .bf16) (x2 : Vec F S2048x256 .bf16) (x3 : Vec F S256x2048 .bf16)
    (xo : Vec F S1024x2048 .f32) (y : S1024x2048.Idx) :
    ∃ pc ∈ (runNext c i arg2 harg2 arg3 harg3 arg4 harg4 arg5 harg5 arg6 harg6 hc0 x0 x1 x2 x3 xo).1, y ∈ pc.1.set :=
  View.cover_of_tiledL (runNext c i arg2 harg2 arg3 harg3 arg4 harg4 arg5 harg5 arg6 harg6 hc0 x0 x1 x2 x3 xo).1 S1024x2048.size (by sl_kernel_rfl) y

/-- What a later run leaves: its piece read back. -/
def outNext (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : ¬firstRun i)
    (x0 : Vec F S1024x2048 .bf16) (x1 : Vec F S2048x256 .bf16) (x2 : Vec F S2048x256 .bf16) (x3 : Vec F S256x2048 .bf16)
    (xo : Vec F S1024x2048 .f32) : Vec F S1024x2048 .f32 :=
  VO.read (Elt F) (VO.writes (Elt F) VO.junk (runNext c i arg2 harg2 arg3 harg3 arg4 harg4 arg5 harg5 arg6 harg6 hc0 x0 x1 x2 x3 xo).1)

/-! ## The accumulator, point by point -/

/-- What the output window's staging buffer holds after the body at position `n`: at the first run of a row tile the
    first run's result on the point's blocks; at a later run that run's result over what the point before left. -/
def totalAt (c : Dev nD) : (n : ℕ) → n < cfg0.N → Vec F S1024x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((firstRun_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 22 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((firstRun_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outNext c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((firstRun_iff ⟨n + 1, hn⟩).mp h)) (iblk m c 0 ⟨n + 1, hn⟩) (iblk m c 1 ⟨n + 1, hn⟩) (iblk m c 2 ⟨n + 1, hn⟩) (iblk m c 3 ⟨n + 1, hn⟩)
        (totalAt c n (Nat.lt_of_succ_lt hn))

/-- At the first run of a row tile. -/
theorem totalAt_first (c : Dev nD) (t : Fin cfg0.N) (h0 : t.val % 22 = 0) :
    totalAt m c t.val t.isLt = outFirst c (grid0.coords t) (ms0 t) (hs0 t) (ms1 t) (hs1 t) (ms2 t) (hs2 t) (ms3 t) (hs3 t) (ms4 t) (hs4 t)
      ((firstRun_iff t).mpr h0) (iblk m c 0 t) (iblk m c 1 t) (iblk m c 2 t) (iblk m c 3 t) := by
  obtain ⟨n, hn⟩ := t
  cases n with
  | zero => exact rfl
  | succ n => exact (dif_pos h0).trans rfl

/-- At a later run: over what the point before left. -/
theorem totalAt_next (c : Dev nD) (t : Fin cfg0.N) (h0 : ¬t.val % 22 = 0) :
    totalAt m c t.val t.isLt = outNext c (grid0.coords t) (ms0 t) (hs0 t) (ms1 t) (hs1 t) (ms2 t) (hs2 t) (ms3 t) (hs3 t) (ms4 t) (hs4 t)
      (fun h => h0 ((firstRun_iff t).mp h)) (iblk m c 0 t) (iblk m c 1 t) (iblk m c 2 t) (iblk m c 3 t)
      (totalAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block and the output's at the
    accumulator; the invariant the core's scoped rest; nothing owed; the projection matrix's share dealt to the
    gate window and the up window, one half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (totalAt m c t.val t.isLt)
  Φ _ := Pipeline.scopedRest spec0 c
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (totalAt m c t.val t.isLt) := by dsimp only [dats]

/-- Each input's current staging buffer holds its block at every point, fetched there or not: unfetched, the block
    index has not moved since the point before, and the body leaves the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- At a later run of a row tile the output's staging buffer holds what the point before left: the buffer is written
    back only after a tile's last run. -/
theorem before_4_next (c : Dev nD) (t : Fin cfg0.N) (h0 : ¬t.val % 22 = 0) (d) :
    (dats m 0 c).before 4 t d = (totalAt m c (t.val - 1) (Nat.lt_of_le_of_lt (Nat.sub_le _ _) t.isLt)) := by
  have hN : t.val < 176 := lt_of_lt_of_eq t.isLt (show cfg0.N = 176 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the run number says which case the point is in; at a
    later run the output buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 176 := lt_of_lt_of_eq t.isLt (show cfg0.N = 176 from N_0)
  by_cases h0 : t.val % 22 = 0
  · rw [totalAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((firstRun_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [totalAt_next m c t h0]
    simp only [before_4_next m c t h0]
    unfold outNext
    iintro ⟨HΦ, Ho, ⟨%d0, H0⟩, ⟨%d1, H1⟩, ⟨%d2, H2⟩, ⟨%d3, H3⟩, ⟨%d4, H4⟩⟩
    iapply ((runNext c (grid0.coords t) _ _ _ _ _ _ _ _ _ _ (fun h => h0 ((firstRun_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverNext c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.KernelRun.lean ====
/-
  The gated feed-forward kernel's run: the launch, and the frame it gives.

  The region is handed the four distinct buffers behind its five windows, each whole at the full share. The buffer of
  the projection matrix is read through two windows; its full share is the composite of its left and right halves,
  one for each of them. With the body obligation at every point the pipeline runs to the end: each window's array
  ends at what the proof data compute for it, and the three argument arrays, which no window stages, end as launched.
-/
import proofs.«103557_j24970939859025_2_alg».proof.Proof.KernelFrame

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, at the region's entry, make the proof data's arrays: the projection
    matrix's full share is split in two. -/
theorem hsplit (c : Dev nD) :
    (Pipeline.arrBufs spec0 c (V m c) : sProp 𝕄) ⊢ (dats m 0 c).arrays ((dats m 0 c).arrAt · 0) := by
  have e : (bigSep (Finset.univ.image (Pipeline.arrRef spec0)) fun b => (((c.tc : Thread nD τ).loc b) ↦{fullShare} V m c b : sProp 𝕄))
      = iprop((((c.tc : Thread nD τ).loc main_v0) ↦{fullShare} V m c main_v0) ∗ (((c.tc : Thread nD τ).loc main_v1) ↦{fullShare} V m c main_v1)
          ∗ (((c.tc : Thread nD τ).loc main_v2) ↦{fullShare} V m c main_v2) ∗ (((c.tc : Thread nD τ).loc main_v3) ↦{fullShare} V m c main_v3)) :=
    bigSep_eq_bigSepL_of_eq [main_v0, main_v1, main_v2, main_v3] (by decide) (by decide) _
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have s0 : (dats m 0 c).share 0 = fullShare := rfl
  have s1 : (dats m 0 c).share 1 = fullShare.left := rfl
  have s2 : (dats m 0 c).share 2 = fullShare.right := rfl
  have s3 : (dats m 0 c).share 3 = fullShare := rfl
  have s4 : (dats m 0 c).share 4 = fullShare := rfl
  have a0 : (dats m 0 c).arrAt 0 0 = V m c main_v0 := A_eq m c 0
  have a1 : (dats m 0 c).arrAt 1 0 = V m c main_v1 := A_eq m c 1
  have a2 : (dats m 0 c).arrAt 2 0 = V m c main_v1 := A_eq m c 2
  have a3 : (dats m 0 c).arrAt 3 0 = V m c main_v2 := A_eq m c 3
  have a4 : (dats m 0 c).arrAt 4 0 = V m c main_v3 := A_eq m c 4
  unfold Pipeline.arrBufs Dat.arrays
  rw [e, bigSep_W0]
  simp only [h0, h1, h2, h3, h4, s0, s1, s2, s3, s4, a0, a1, a2, a3, a4]
  iintro ⟨H0, H1, H2, H3⟩
  ihave ⟨H1a, H1b⟩ := (pointsTo_share (PosShare.mem_left_op_right fullShare)).1 $$ H1
  isplitl [H0]; · iexact H0
  isplitl [H1a]; · iexact H1a
  isplitl [H1b]; · iexact H1b
  isplitl [H2]; · iexact H2
  iexact H3

set_option backward.isDefEq.respectTransparency.types false in
/-- Every weakly fair execution terminates; each window's array ends at the proof data's final contents, every other
    unscoped buffer as the region found it. -/
theorem run_main : θ_run defs (onTc (τ := τ) (main (F := F))) (s₀ m ρ) (Cert.LibFrameShared.SharedPost cfgs (dats m) 0 (V m)) :=
  Cert.LibFrameShared.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.Kernel.Frm

end
-- ==== Proof.KernelIdealRuns.lean ====
/-
  The gated feed-forward kernel, point by point: what the region finds and what one run of the body does.

  The region is entered after three changes of float format (tokens, projection matrix, down matrix); the grid has
  8 × 22 points, point `t` = (row tile `t / 22`, run `t % 22`). The body's one branch asks whether the run is the
  first of its row tile: then the output block is first set to zero. In both cases the body then reads the token
  block, the gate and up blocks of the run, the output block, and the down block, and stores the output block with
  the run's contribution added. The two runs below say that, on whole staging buffers holding given contents, the
  body reaches its continuation with the four inputs as they were and the output buffer overwritten by the stores'
  pieces; the pieces are found by the symbolic execution.
-/
import proofs.«103557_j24970939859025_2_alg».proof.Proof.Gen.KernelIdeal.Launch
import proofs.«103557_j24970939859025_2_alg».proof.Proof.Gen.KernelIdeal.Skeleton
import proofs.«103557_j24970939859025_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: after the three changes of float format. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those three operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the three operations writes the tokens: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- Nor the projection matrix. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- Nor the down matrix. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch: is this the first run of the row tile? -/

/-- The branch condition as the body computes it from the grid coordinates. -/
abbrev firstRun (i : grid0.Coords) : Prop := (Scalar.cmpi .ne (Scalar.extui (Scalar.cmpi .eq (BitVec.ofNat 32 (i 1).val) 0#32)) 0#32) = 1#1
/-- It holds exactly at the points whose run number is zero. -/
theorem firstRun_iff : ∀ t : Fin cfg0.N, firstRun (grid0.coords t) ↔ t.val % 22 = 0 :=
  (by decide +kernel : ∀ t : Fin grid0.N, firstRun (grid0.coords t) ↔ t.val % 22 = 0)

/-! ## The staging buffers at a point -/

/-- One staging buffer of the output window, through which its contents are stated. -/
abbrev VO : View sig .tc .vmem S1024x2048 .f32 := (Memref.whole cc0_stg4_0 : Memref sig .tc .vmem S1024x2048 .f32).view
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .f32 := win0_4.stage (cfg0.slots t 4)
abbrev hs4 (t : Fin cfg0.N) : (ms4 t).IsWhole := hstage0_4 ((cfg0.slots t 4).cast nbuf0_4)

/-! ## One run of the body -/

set_option maxHeartbeats 1000000 in
/-- The first run of a row tile: the output buffer may hold anything; it is zeroed, then the run's contribution is
    added. The pieces the two stores leave are the witness. -/
noncomputable def runFirst (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : firstRun i)
    (x0 : Vec F S1024x2048 .bf16) (x1 : Vec F S2048x256 .bf16) (x2 : Vec F S2048x256 .bf16) (x3 : Vec F S256x2048 .bf16) :
    { L4 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- A later run of a row tile: the output buffer holds the running total `xo`; the branch is not taken, and the run's
    contribution is added to it. The piece the one store leaves is the witness. -/
noncomputable def runNext (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : ¬firstRun i)
    (x0 : Vec F S1024x2048 .bf16) (x1 : Vec F S2048x256 .bf16) (x2 : Vec F S2048x256 .bf16) (x3 : Vec F S256x2048 .bf16)
    (xo : Vec F S1024x2048 .f32) :
    { L4 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__moe_kernel i arg2 harg2 arg3 harg3 arg4 harg4 arg5 harg5 arg6 harg6) K } := by
  refine ⟨?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frm

end
-- ==== Proof.KernelIdealFrame.lean ====
/-
  The gated feed-forward kernel's frame: it runs to the end, faults nowhere, and leaves its inputs unchanged.

  The pipeline has five windows: the token block, the gate block and the up block (both cut from the ONE projection
  matrix, at different column blocks), the down block, and the output block. The output block's staging buffer is
  the accumulator of a row tile: reset at the tile's first run, added to at every run, written back at the last.
  What it holds after each point is stated by recursion on the point (`totalAt`). The projection matrix's share is
  dealt to the two windows that read it, one half each.
-/
import proofs.«103557_j24970939859025_2_alg».proof.Proof.KernelIdealRuns
import proofs.«103557_j24970939859025_2_alg».proof.Proof.LibFrameShared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a run leaves in the output buffer -/

/-- The first run's two stores tile the output block. -/
theorem coverFirst (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : firstRun i)
    (x0 : Vec F S1024x2048 .bf16) (x1 : Vec F S2048x256 .bf16) (x2 : Vec F S2048x256 .bf16) (x3 : Vec F S256x2048 .bf16) (y : S1024x2048.Idx) :
    ∃ pc ∈ (runFirst c i arg2 harg2 arg3 harg3 arg4 harg4 arg5 harg5 arg6 harg6 hc0 x0 x1 x2 x3).1, y ∈ pc.1.set :=
  View.cover_of_tiledL (runFirst c i arg2 harg2 arg3 harg3 arg4 harg4 arg5 harg5 arg6 harg6 hc0 x0 x1 x2 x3).1 S1024x2048.size (by sl_kernel_rfl) y

/-- What the first run leaves: its pieces read back. -/
def outFirst (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : firstRun i)
    (x0 : Vec F S1024x2048 .bf16) (x1 : Vec F S2048x256 .bf16) (x2 : Vec F S2048x256 .bf16) (x3 : Vec F S256x2048 .bf16) : Vec F S1024x2048 .f32 :=
  VO.read (Elt F) (VO.writes (Elt F) VO.junk (runFirst c i arg2 harg2 arg3 harg3 arg4 harg4 arg5 harg5 arg6 harg6 hc0 x0 x1 x2 x3).1)

/-- A later run's one store covers the output block. -/
theorem coverNext (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : ¬firstRun i)
    (x0 : Vec F S1024x2048 .bf16) (x1 : Vec F S2048x256 .bf16) (x2 : Vec F S2048x256 .bf16) (x3 : Vec F S256x2048 .bf16)
    (xo : Vec F S1024x2048 .f32) (y : S1024x2048.Idx) :
    ∃ pc ∈ (runNext c i arg2 harg2 arg3 harg3 arg4 harg4 arg5 harg5 arg6 harg6 hc0 x0 x1 x2 x3 xo).1, y ∈ pc.1.set :=
  View.cover_of_tiledL (runNext c i arg2 harg2 arg3 harg3 arg4 harg4 arg5 harg5 arg6 harg6 hc0 x0 x1 x2 x3 xo).1 S1024x2048.size (by sl_kernel_rfl) y

/-- What a later run leaves: its piece read back. -/
def outNext (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : ¬firstRun i)
    (x0 : Vec F S1024x2048 .bf16) (x1 : Vec F S2048x256 .bf16) (x2 : Vec F S2048x256 .bf16) (x3 : Vec F S256x2048 .bf16)
    (xo : Vec F S1024x2048 .f32) : Vec F S1024x2048 .f32 :=
  VO.read (Elt F) (VO.writes (Elt F) VO.junk (runNext c i arg2 harg2 arg3 harg3 arg4 harg4 arg5 harg5 arg6 harg6 hc0 x0 x1 x2 x3 xo).1)

/-! ## The accumulator, point by point -/

/-- What the output window's staging buffer holds after the body at position `n`: at the first run of a row tile the
    first run's result on the point's blocks; at a later run that run's result over what the point before left. -/
def totalAt (c : Dev nD) : (n : ℕ) → n < cfg0.N → Vec F S1024x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((firstRun_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 22 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((firstRun_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outNext c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((firstRun_iff ⟨n + 1, hn⟩).mp h)) (iblk m c 0 ⟨n + 1, hn⟩) (iblk m c 1 ⟨n + 1, hn⟩) (iblk m c 2 ⟨n + 1, hn⟩) (iblk m c 3 ⟨n + 1, hn⟩)
        (totalAt c n (Nat.lt_of_succ_lt hn))

/-- At the first run of a row tile. -/
theorem totalAt_first (c : Dev nD) (t : Fin cfg0.N) (h0 : t.val % 22 = 0) :
    totalAt m c t.val t.isLt = outFirst c (grid0.coords t) (ms0 t) (hs0 t) (ms1 t) (hs1 t) (ms2 t) (hs2 t) (ms3 t) (hs3 t) (ms4 t) (hs4 t)
      ((firstRun_iff t).mpr h0) (iblk m c 0 t) (iblk m c 1 t) (iblk m c 2 t) (iblk m c 3 t) := by
  obtain ⟨n, hn⟩ := t
  cases n with
  | zero => exact rfl
  | succ n => exact (dif_pos h0).trans rfl

/-- At a later run: over what the point before left. -/
theorem totalAt_next (c : Dev nD) (t : Fin cfg0.N) (h0 : ¬t.val % 22 = 0) :
    totalAt m c t.val t.isLt = outNext c (grid0.coords t) (ms0 t) (hs0 t) (ms1 t) (hs1 t) (ms2 t) (hs2 t) (ms3 t) (hs3 t) (ms4 t) (hs4 t)
      (fun h => h0 ((firstRun_iff t).mp h)) (iblk m c 0 t) (iblk m c 1 t) (iblk m c 2 t) (iblk m c 3 t)
      (totalAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block and the output's at the
    accumulator; the invariant the core's scoped rest; nothing owed; the projection matrix's share dealt to the
    gate window and the up window, one half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (totalAt m c t.val t.isLt)
  Φ _ := Pipeline.scopedRest spec0 c
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (totalAt m c t.val t.isLt) := by dsimp only [dats]

/-- Each input's current staging buffer holds its block at every point, fetched there or not: unfetched, the block
    index has not moved since the point before, and the body leaves the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- At a later run of a row tile the output's staging buffer holds what the point before left: the buffer is written
    back only after a tile's last run. -/
theorem before_4_next (c : Dev nD) (t : Fin cfg0.N) (h0 : ¬t.val % 22 = 0) (d) :
    (dats m 0 c).before 4 t d = (totalAt m c (t.val - 1) (Nat.lt_of_le_of_lt (Nat.sub_le _ _) t.isLt)) := by
  have hN : t.val < 176 := lt_of_lt_of_eq t.isLt (show cfg0.N = 176 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the run number says which case the point is in; at a
    later run the output buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 176 := lt_of_lt_of_eq t.isLt (show cfg0.N = 176 from N_0)
  by_cases h0 : t.val % 22 = 0
  · rw [totalAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((firstRun_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [totalAt_next m c t h0]
    simp only [before_4_next m c t h0]
    unfold outNext
    iintro ⟨HΦ, Ho, ⟨%d0, H0⟩, ⟨%d1, H1⟩, ⟨%d2, H2⟩, ⟨%d3, H3⟩, ⟨%d4, H4⟩⟩
    iapply ((runNext c (grid0.coords t) _ _ _ _ _ _ _ _ _ _ (fun h => h0 ((firstRun_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverNext c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.KernelIdealRun.lean ====
/-
  The gated feed-forward kernel's run: the launch, and the frame it gives.

  The region is handed the four distinct buffers behind its five windows, each whole at the full share. The buffer of
  the projection matrix is read through two windows; its full share is the composite of its left and right halves,
  one for each of them. With the body obligation at every point the pipeline runs to the end: each window's array
  ends at what the proof data compute for it, and the three argument arrays, which no window stages, end as launched.
-/
import proofs.«103557_j24970939859025_2_alg».proof.Proof.KernelIdealFrame

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, at the region's entry, make the proof data's arrays: the projection
    matrix's full share is split in two. -/
theorem hsplit (c : Dev nD) :
    (Pipeline.arrBufs spec0 c (V m c) : sProp 𝕄) ⊢ (dats m 0 c).arrays ((dats m 0 c).arrAt · 0) := by
  have e : (bigSep (Finset.univ.image (Pipeline.arrRef spec0)) fun b => (((c.tc : Thread nD τ).loc b) ↦{fullShare} V m c b : sProp 𝕄))
      = iprop((((c.tc : Thread nD τ).loc main_v0) ↦{fullShare} V m c main_v0) ∗ (((c.tc : Thread nD τ).loc main_v1) ↦{fullShare} V m c main_v1)
          ∗ (((c.tc : Thread nD τ).loc main_v2) ↦{fullShare} V m c main_v2) ∗ (((c.tc : Thread nD τ).loc main_v3) ↦{fullShare} V m c main_v3)) :=
    bigSep_eq_bigSepL_of_eq [main_v0, main_v1, main_v2, main_v3] (by decide) (by decide) _
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have s0 : (dats m 0 c).share 0 = fullShare := rfl
  have s1 : (dats m 0 c).share 1 = fullShare.left := rfl
  have s2 : (dats m 0 c).share 2 = fullShare.right := rfl
  have s3 : (dats m 0 c).share 3 = fullShare := rfl
  have s4 : (dats m 0 c).share 4 = fullShare := rfl
  have a0 : (dats m 0 c).arrAt 0 0 = V m c main_v0 := A_eq m c 0
  have a1 : (dats m 0 c).arrAt 1 0 = V m c main_v1 := A_eq m c 1
  have a2 : (dats m 0 c).arrAt 2 0 = V m c main_v1 := A_eq m c 2
  have a3 : (dats m 0 c).arrAt 3 0 = V m c main_v2 := A_eq m c 3
  have a4 : (dats m 0 c).arrAt 4 0 = V m c main_v3 := A_eq m c 4
  unfold Pipeline.arrBufs Dat.arrays
  rw [e, bigSep_W0]
  simp only [h0, h1, h2, h3, h4, s0, s1, s2, s3, s4, a0, a1, a2, a3, a4]
  iintro ⟨H0, H1, H2, H3⟩
  ihave ⟨H1a, H1b⟩ := (pointsTo_share (PosShare.mem_left_op_right fullShare)).1 $$ H1
  isplitl [H0]; · iexact H0
  isplitl [H1a]; · iexact H1a
  isplitl [H1b]; · iexact H1b
  isplitl [H2]; · iexact H2
  iexact H3

set_option backward.isDefEq.respectTransparency.types false in
/-- Every weakly fair execution terminates; each window's array ends at the proof data's final contents, every other
    unscoped buffer as the region found it. -/
theorem run_main : θ_run defs (onTc (τ := τ) (main (F := F))) (s₀ m ρ) (Cert.LibFrameShared.SharedPost cfgs (dats m) 0 (V m)) :=
  Cert.LibFrameShared.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.KernelIdeal.Frm

end
-- ==== Proof.KernelIdealCases.lean ====
/-
  The two case values of the gated feed-forward kernel's body.

  One run of the body leaves, in the output block's staging buffer, its stores' pieces. Read back as a block:
  at a later run of a row tile, where the buffer held the running total `xo`, the one covering store's payload on
  the four input blocks and `xo`; at the first run of a row tile, the same payload on the four input blocks and the
  zero block (the first store's payload, which the body reads back before adding to it). Every load and store is
  through the whole-buffer rectangle at zero offsets, through which a load reads the contents and the last store
  leaves its payload.
-/
import proofs.«103557_j24970939859025_2_alg».proof.Proof.KernelIdealFrame
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-two rectangle, spelt as the constant function. -/
theorem hz : (![0, 0] : Fin 2 → Nat) = fun _ => 0 := funext fun a => by fin_cases a <;> rfl

/-- A later run's value: the buffer held the running total `xo`; the one covering store leaves the payload on the
    input blocks and `xo`, its loads reading the whole buffers. -/
theorem outNext_eq (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : ¬firstRun i)
    (x0 : Vec F S1024x2048 .bf16) (x1 : Vec F S2048x256 .bf16) (x2 : Vec F S2048x256 .bf16) (x3 : Vec F S256x2048 .bf16)
    (xo : Vec F S1024x2048 .f32) :
    outNext c i arg2 harg2 arg3 harg3 arg4 harg4 arg5 harg5 arg6 harg6 hc0 x0 x1 x2 x3 xo = k0_pay2 x0 x1 x2 xo x3 := by
  unfold outNext
  rw [View.read_writes_eq_canon _ _ _ (coverNext c i arg2 harg2 arg3 harg3 arg4 harg4 arg5 harg5 arg6 harg6 hc0 x0 x1 x2 x3 xo)]
  unfold runNext
  dsimp only
  rw [View.canon_unit_zero hz]
  simp only [View.readAt_eq_ld, harg2.read_unread, harg3.read_unread, harg4.read_unread, harg5.read_unread, harg6.read_unread,
    View.ld_unit_zero (S := S1024x2048) hz, View.ld_unit_zero (S := S2048x256) hz, View.ld_unit_zero (S := S256x2048) hz]

/-- The first run's value: the body stores the zero block, reads it back, and leaves the payload on the input blocks
    and that zero block — the read-back is the run's own named intermediate, a covered load of the first store. -/
theorem outFirst_eq (c : Dev nD) (i : grid0.Coords)
    (arg2 : Memref sig .tc .vmem S1024x2048 .bf16) (harg2 : arg2.IsWhole) (arg3 : Memref sig .tc .vmem S2048x256 .bf16) (harg3 : arg3.IsWhole)
    (arg4 : Memref sig .tc .vmem S2048x256 .bf16) (harg4 : arg4.IsWhole) (arg5 : Memref sig .tc .vmem S256x2048 .bf16) (harg5 : arg5.IsWhole)
    (arg6 : Memref sig .tc .vmem S1024x2048 .f32) (harg6 : arg6.IsWhole) (hc0 : firstRun i)
    (x0 : Vec F S1024x2048 .bf16) (x1 : Vec F S2048x256 .bf16) (x2 : Vec F S2048x256 .bf16) (x3 : Vec F S256x2048 .bf16) :
    outFirst c i arg2 harg2 arg3 harg3 arg4 harg4 arg5 harg5 arg6 harg6 hc0 x0 x1 x2 x3 = k0_pay2 x0 x1 x2 (k0_pay1 (F := F)) x3 := by
  unfold outFirst
  rw [View.read_writes_eq_canon _ _ _ (coverFirst c i arg2 harg2 arg3 harg3 arg4 harg4 arg5 harg5 arg6 harg6 hc0 x0 x1 x2 x3)]
  unfold runFirst
  dsimp only
  sl_unfold_words
  rw [View.canon_cons_unit_zero (S := S1024x2048) hz, View.readCov_unit_zero (S := S1024x2048) _ hz]
  simp only [View.readAt_eq_ld, harg2.read_unread, harg3.read_unread, harg4.read_unread, harg5.read_unread, harg6.read_unread,
    View.ld_unit_zero (S := S1024x2048) hz, View.ld_unit_zero (S := S2048x256) hz, View.ld_unit_zero (S := S256x2048) hz]

end Cert.KernelIdeal.Frm

end
-- ==== Proof.KernelIdealBlocks.lean ====
/-
  The blocks the kernel's windows read, entry by entry, and what the region finds in the staged arrays.

  The grid has 8 × 22 points; point `t` is row tile `t / 22`, run `t % 22`.  Window 0 reads the token block of the
  row tile (1024 rows, all 2048 columns); window 1 the gate block of the run (all 2048 rows, 256 columns from column
  `256 · (t % 22)`); window 2 the up block of the run (the same, 5632 columns further right); window 3 the down block
  of the run (256 rows from row `256 · (t % 22)`, all 2048 columns).  A block's entry `(a, b)` is the array's entry at
  (block index × block extent + a, likewise for b); the block indices are decided once over the 176 points.
  Window 4 is the output block of the row tile (1024 rows, all 2048 columns), written back at the tile's last run;
  those 8 blocks cover the output array.

  On the extended reals a change of float format is the identity, so the three arrays the region reads — each the
  launch contents of an argument after one change of format — are the arguments themselves.
-/
import proofs.«103557_j24970939859025_2_alg».proof.Proof.KernelIdealRuns
import Idealize.ShloMosaic.Lib.StableHlo.Run
import Idealize.ShloMosaic.Lib.ValueIdx

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)
open Cert.KernelIdeal Cert.KernelIdeal.Gen

variable {F : FTy → Type} [FloatOps F]

variable (m : (ℓ : Loc nD τ sig) → Buf (Elt F) ℓ)

/-! ## The block indices, over the grid -/

/-- The token window's block index at point `t`: (row tile, 0). -/
theorem idx0 : ∀ t : Fin cfg0.N, win0_0.index t 0 = t.val / 22 ∧ win0_0.index t 1 = 0 :=
  (by decide +kernel : ∀ t : Fin grid0.N, win0_0.index t 0 = t.val / 22 ∧ win0_0.index t 1 = 0)
/-- The gate window's: (0, run). -/
theorem idx1 : ∀ t : Fin cfg0.N, win0_1.index t 0 = 0 ∧ win0_1.index t 1 = t.val % 22 :=
  (by decide +kernel : ∀ t : Fin grid0.N, win0_1.index t 0 = 0 ∧ win0_1.index t 1 = t.val % 22)
/-- The up window's: (0, 22 + run). -/
theorem idx2 : ∀ t : Fin cfg0.N, win0_2.index t 0 = 0 ∧ win0_2.index t 1 = 22 + t.val % 22 :=
  (by decide +kernel : ∀ t : Fin grid0.N, win0_2.index t 0 = 0 ∧ win0_2.index t 1 = 22 + t.val % 22)
/-- The down window's: (run, 0). -/
theorem idx3 : ∀ t : Fin cfg0.N, win0_3.index t 0 = t.val % 22 ∧ win0_3.index t 1 = 0 :=
  (by decide +kernel : ∀ t : Fin grid0.N, win0_3.index t 0 = t.val % 22 ∧ win0_3.index t 1 = 0)

/-! ## The positions the blocks' entries have in their arrays -/

/-- Row `p` of row tile `t / 22` is a row of the token matrix. -/
theorem row_lt (t : Fin cfg0.N) (p : Fin 1024) : 1024 * (t.val / 22) + p.val < 8192 := by
  have h1 := t.isLt; have hN : cfg0.N = 176 := N_0; have h2 := p.isLt; omega
/-- Place `k'` of run `t % 22` is a hidden position, -/
theorem pos_lt (t : Fin cfg0.N) (k' : Fin 256) : 256 * (t.val % 22) + k'.val < 5632 := by
  have h2 := k'.isLt; omega
/-- so a column of the gate half of the projection matrix, -/
theorem gate_lt (t : Fin cfg0.N) (k' : Fin 256) : 256 * (t.val % 22) + k'.val < 11264 := by
  have h2 := k'.isLt; omega
/-- and, 5632 further right, a column of its up half. -/
theorem up_lt (t : Fin cfg0.N) (k' : Fin 256) : 5632 + 256 * (t.val % 22) + k'.val < 11264 := by
  have h2 := k'.isLt; omega

/-! ## The four blocks at an index -/

/-- The token block at point `t`, entry `(p, h)`: the tokens' entry `(1024 · (t / 22) + p, h)`. -/
theorem iblk0_apply (c : Dev nD) (t : Fin cfg0.N) (p : Fin 1024) (h : Fin 2048) :
    (iblk m c 0 t : Vec F S1024x2048 .bf16) (ix2 p h)
      = V m c main_v0 (ix2 (⟨1024 * (t.val / 22) + p.val, row_lt t p⟩ : Fin 8192) h) := by
  unfold iblk
  rw [View.read_apply]
  show V m c main_v0 _ = V m c main_v0 _
  congr 1
  funext a
  apply Fin.ext
  match a with
  | ⟨0, _⟩ => show win0_0.index t 0 * 1024 + 1 * p.val = 1024 * (t.val / 22) + p.val; rw [(idx0 t).1]; omega
  | ⟨1, _⟩ => show win0_0.index t 1 * 2048 + 1 * h.val = h.val; rw [(idx0 t).2]; omega

/-- The gate block at point `t`, entry `(h, k')`: the projection matrix's entry `(h, 256 · (t % 22) + k')`. -/
theorem iblk1_apply (c : Dev nD) (t : Fin cfg0.N) (h : Fin 2048) (k' : Fin 256) :
    (iblk m c 1 t : Vec F S2048x256 .bf16) (ix2 h k')
      = V m c main_v1 (ix2 h (⟨256 * (t.val % 22) + k'.val, gate_lt t k'⟩ : Fin 11264)) := by
  unfold iblk
  rw [View.read_apply]
  show V m c main_v1 _ = V m c main_v1 _
  congr 1
  funext a
  apply Fin.ext
  match a with
  | ⟨0, _⟩ => show win0_1.index t 0 * 2048 + 1 * h.val = h.val; rw [(idx1 t).1]; omega
  | ⟨1, _⟩ => show win0_1.index t 1 * 256 + 1 * k'.val = 256 * (t.val % 22) + k'.val; rw [(idx1 t).2]; omega

/-- The up block at point `t`, entry `(h, k')`: the projection matrix's entry `(h, 5632 + 256 · (t % 22) + k')`. -/
theorem iblk2_apply (c : Dev nD) (t : Fin cfg0.N) (h : Fin 2048) (k' : Fin 256) :
    (iblk m c 2 t : Vec F S2048x256 .bf16) (ix2 h k')
      = V m c main_v1 (ix2 h (⟨5632 + 256 * (t.val % 22) + k'.val, up_lt t k'⟩ : Fin 11264)) := by
  unfold iblk
  rw [View.read_apply]
  show V m c main_v1 _ = V m c main_v1 _
  congr 1
  funext a
  apply Fin.ext
  match a with
  | ⟨0, _⟩ => show win0_2.index t 0 * 2048 + 1 * h.val = h.val; rw [(idx2 t).1]; omega
  | ⟨1, _⟩ => show win0_2.index t 1 * 256 + 1 * k'.val = 5632 + 256 * (t.val % 22) + k'.val; rw [(idx2 t).2]; omega

/-- The down block at point `t`, entry `(k', q)`: the down matrix's entry `(256 · (t % 22) + k', q)`. -/
theorem iblk3_apply (c : Dev nD) (t : Fin cfg0.N) (k' : Fin 256) (q : Fin 2048) :
    (iblk m c 3 t : Vec F S256x2048 .bf16) (ix2 k' q)
      = V m c main_v2 (ix2 (⟨256 * (t.val % 22) + k'.val, pos_lt t k'⟩ : Fin 5632) q) := by
  unfold iblk
  rw [View.read_apply]
  show V m c main_v2 _ = V m c main_v2 _
  congr 1
  funext a
  apply Fin.ext
  match a with
  | ⟨0, _⟩ => show win0_3.index t 0 * 256 + 1 * k'.val = 256 * (t.val % 22) + k'.val; rw [(idx3 t).1]; omega
  | ⟨1, _⟩ => show win0_3.index t 1 * 2048 + 1 * q.val = q.val; rw [(idx3 t).2]; omega

/-! ## The output window -/

/-- The output window's block index at point `t`: (row tile, 0). -/
theorem idx4 : ∀ t : Fin cfg0.N, win0_4.index t 0 = t.val / 22 ∧ win0_4.index t 1 = 0 :=
  (by decide +kernel : ∀ t : Fin grid0.N, win0_4.index t 0 = t.val / 22 ∧ win0_4.index t 1 = 0)
/-- Its blocks are never clipped: every one has the full 1024 rows and 2048 columns. -/
theorem xsize4 : ∀ t : Fin cfg0.N, win0_4.xsize (grid0.coords t) 0 = 1024 ∧ win0_4.xsize (grid0.coords t) 1 = 2048 :=
  (by decide +kernel : ∀ t : Fin grid0.N, win0_4.xsize (grid0.coords t) 0 = 1024 ∧ win0_4.xsize (grid0.coords t) 1 = 2048)

/-- The output block at point `t` read off contents `A` of the output array, entry `(p, q)`: `A`'s entry
    `(1024 · (t / 22) + p, q)`. -/
theorem blk4_read_apply (c : Dev nD) (t : Fin cfg0.N) (A : Buf (Elt F) ((cfg0.win 4).arr.view.loc (c.tc : Thread nD τ)))
    (p : Fin 1024) (q : Fin 2048) :
    ((cfg0.win 4).blk t).view.read (Elt F) A (ix2 p q)
      = A (ix2 (⟨1024 * (t.val / 22) + p.val, row_lt t p⟩ : Fin 8192) q) := by
  rw [View.read_apply]
  refine congrArg A (funext fun a => Fin.ext ?_)
  match a with
  | ⟨0, _⟩ => show win0_4.index t 0 * 1024 + 1 * p.val = 1024 * (t.val / 22) + p.val; rw [(idx4 t).1]; omega
  | ⟨1, _⟩ => show win0_4.index t 1 * 2048 + 1 * q.val = q.val; rw [(idx4 t).2]; omega

/-- Every entry of the output array lies in a block that is written back: row `r` lies in row tile `r / 1024`,
    whose block is written back at the tile's last run, point `22 · (r / 1024) + 21`. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 176 := N_0
  have h0 : (i 0 : Nat) < 8192 := (i 0).isLt
  have h1 : (i 1 : Nat) < 2048 := (i 1).isLt
  obtain ⟨t, htv⟩ : ∃ t : Fin cfg0.N, t.val = 22 * ((i 0 : Nat) / 1024) + 21 :=
    ⟨⟨22 * ((i 0 : Nat) / 1024) + 21, by omega⟩, rfl⟩
  refine ⟨t, (flush0_4 t).mpr (by omega), ?_⟩
  show i ∈ ((View.whole main_v3).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + win0_4.xsize (grid0.coords t) 0
    rw [(idx4 t).1, (xsize4 t).1]; omega
  | ⟨1, _⟩ =>
    show win0_4.index t 1 * 2048 ≤ (i 1 : Nat) ∧ (i 1 : Nat) < win0_4.index t 1 * 2048 + win0_4.xsize (grid0.coords t) 1
    rw [(idx4 t).2, (xsize4 t).2]; omega

/-! ## The staged arrays on the extended reals -/

/-- On the extended reals the staged tokens are the tokens as launched: the one operation that wrote them is a
    change of float format, the identity there. -/
theorem V_v0 (m : (ℓ : Loc nD τ sig) → Buf (Elt Ideal) ℓ) (c : Dev nD) :
    (V m c main_v0 : S8192x2048.Idx → EReal) = m ((c : Thread nD τ).loc main_arg0) := by
  dsimp only [V, hostOps0]; after_results; rfl
/-- Likewise the staged projection matrix is the projection matrix as launched, -/
theorem V_v1 (m : (ℓ : Loc nD τ sig) → Buf (Elt Ideal) ℓ) (c : Dev nD) :
    (V m c main_v1 : S2048x11264.Idx → EReal) = m ((c : Thread nD τ).loc main_arg1) := by
  dsimp only [V, hostOps0]; after_results; rfl
/-- and the staged down matrix the down matrix as launched. -/
theorem V_v2 (m : (ℓ : Loc nD τ sig) → Buf (Elt Ideal) ℓ) (c : Dev nD) :
    (V m c main_v2 : S5632x2048.Idx → EReal) = m ((c : Thread nD τ).loc main_arg2) := by
  dsimp only [V, hostOps0]; after_results; rfl

end Cert.KernelIdeal.Frm

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.Payload.lean ====
/-
  The kernel body's two stored values, read at an index, on the extended reals.

  The first stored value is the zero splat.  The second is, at row `p` and column `q`, the running total there plus
  `∑ k', (g k' · σ(g k') · u k') · D (k', q)`, where `g k' = ∑ h, X (p, h) · G (h, k')` and
  `u k' = ∑ h, X (p, h) · U (h, k')` are the two projections of row `p` of the token block and `σ` is the logistic
  function: every reshape in the body is from a shape to itself, the narrowing to the half-width format is the
  identity on the extended reals, and each of the three matrix products runs into the zero accumulator with the
  dimension numbers "rows × contraction times contraction × columns".
-/
import proofs.«103557_j24970939859025_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«103557_j24970939859025_2_alg».proof.Proof.LibMatmulPlain

noncomputable section

namespace Cert.KernelIdeal.Payload

open Cert.KernelIdeal Idealize.ShloMosaic Idealize.ShloMosaic.ValueIdx

/-- The first product's dimension numbers are the plain ones: the data fields are the same lists. -/
theorem dotA_eq_plain :
    dot_S1024x2048_S2048x256_S1024x256_1_0_0_1_n_n = DotDims.plain 1024 2048 256 := rfl

/-- The second product's dimension numbers are the plain ones. -/
theorem dotB_eq_plain :
    dot_S1024x256_S256x2048_S1024x2048_1_0_0_1_n_n = DotDims.plain 1024 256 2048 := rfl

/-- A `[1024, 2048] × [2048, 256]` product into the zero accumulator at `(p, k')`: `∑ h, L (p, h) · R (h, k')`. -/
theorem matmulA_apply (L : FVec Ideal S1024x2048 .bf16) (R : FVec Ideal S2048x256 .bf16) (p : Fin 1024) (k' : Fin 256) :
    FloatOps.matmul dot_S1024x2048_S2048x256_S1024x256_1_0_0_1_n_n none L R (constant S1024x256 .f32 0x00000000#32) (ix2 p k')
      = ∑ h : Fin 2048, L (ix2 p h) * R (ix2 h k') := by
  rw [dotA_eq_plain]
  exact Cert.LibMatmulPlain.matmul_plain_zero_apply none L R p k'

/-- A `[1024, 256] × [256, 2048]` product into the zero accumulator at `(p, q)`: `∑ k', L (p, k') · R (k', q)`. -/
theorem matmulB_apply (L : FVec Ideal S1024x256 .bf16) (R : FVec Ideal S256x2048 .bf16) (p : Fin 1024) (q : Fin 2048) :
    FloatOps.matmul dot_S1024x256_S256x2048_S1024x2048_1_0_0_1_n_n none L R (constant S1024x2048 .f32 0x00000000#32) (ix2 p q)
      = ∑ k' : Fin 256, L (ix2 p k') * R (ix2 k' q) := by
  rw [dotB_eq_plain]
  exact Cert.LibMatmulPlain.matmul_plain_zero_apply none L R p q

/-- The first stored value is zero at every index: the splat of the pattern of `+0`. -/
theorem pay1_apply (j : S1024x2048.Idx) : Cert.KernelIdeal.Gen.k0_pay1 (F := Ideal) j = 0 :=
  Ideal.ofBits_zero_f32

/-- The second stored value at `(p, q)`: the running total there plus the gated product's row `p` against column `q`
    of the down block. -/
theorem pay2_apply (v3 : Vec Ideal S1024x2048 .bf16) (v5 v8 : Vec Ideal S2048x256 .bf16) (v15 : Vec Ideal S1024x2048 .f32)
    (v17 : Vec Ideal S256x2048 .bf16) (p : Fin 1024) (q : Fin 2048) :
    Cert.KernelIdeal.Gen.k0_pay2 (F := Ideal) v3 v5 v8 v15 v17 (ix2 p q)
      = v15 (ix2 p q) + ∑ k' : Fin 256, (((∑ h : Fin 2048, v3 (ix2 p h) * v5 (ix2 h k')) * Ideal.logistic (∑ h : Fin 2048, v3 (ix2 p h) * v5 (ix2 h k'))) * (∑ h : Fin 2048, v3 (ix2 p h) * v8 (ix2 h k'))) * v17 (ix2 k' q) := by
  unfold Cert.KernelIdeal.Gen.k0_pay2
  simp only [shapeCast_self]
  refine (addf_apply _ _ _).trans ?_
  refine congrArg (v15 (ix2 p q) + ·) ?_
  refine (matmulB_apply _ _ p q).trans ?_
  refine Finset.sum_congr rfl fun k' _ => ?_
  refine congrArg (· * v17 (ix2 k' q)) ?_
  show (FloatOps.matmul (F := Ideal) dot_S1024x2048_S2048x256_S1024x256_1_0_0_1_n_n none v3 v5 (constant S1024x256 .f32 0x00000000#32) (ix2 p k')
        * Ideal.logistic (FloatOps.matmul (F := Ideal) dot_S1024x2048_S2048x256_S1024x256_1_0_0_1_n_n none v3 v5 (constant S1024x256 .f32 0x00000000#32) (ix2 p k')))
        * FloatOps.matmul (F := Ideal) dot_S1024x2048_S2048x256_S1024x256_1_0_0_1_n_n none v3 v8 (constant S1024x256 .f32 0x00000000#32) (ix2 p k') = _
  rw [matmulA_apply v3 v5 p k', matmulA_apply v3 v8 p k']

end Cert.KernelIdeal.Payload

end
-- ==== Proof.Spec.lean ====
/-
  The mathematics of the gated feed-forward layer, on the extended reals.

  For a token matrix `x` (8192 × 2048), a projection matrix `w` (2048 × 11264) whose first 5632 columns are the
  gate half and whose last 5632 columns are the up half, and a down matrix `d` (5632 × 2048):

      proj r col = ∑ h, x (r, h) · w (h, col)
      hidden r k = (proj r k · logistic (proj r k)) · proj r (5632 + k)
      out (r, c) = ∑ k < 5632, hidden r k · d (k, c)

  The same number is reached by cutting the 5632 hidden positions into 22 consecutive runs of 256 and adding the
  runs' contributions to a running total that starts at zero (`running`): addition of extended reals is
  commutative and associative, so the grouping does not matter, and no finiteness is needed.
-/
import Idealize.ShloMosaic.PureOps.Ideal
import Idealize.ShloMosaic.Lib.ValueIdx

noncomputable section

namespace Cert.Swiglu

open Idealize.ShloMosaic Idealize.ShloMosaic.ValueIdx

/-- A matrix of extended reals of the given extents, indexed as the library indexes a rank-2 array. -/
abbrev Mat (a b : ℕ) : Type := (⟨2, ![a, b]⟩ : Shape).Idx → EReal

/-- Hidden position `k`'s column in the gate half of the projection matrix. -/
def gateCol (k : Fin 5632) : Fin 11264 := ⟨k.val, by have := k.isLt; omega⟩
/-- Hidden position `k`'s column in the up half of the projection matrix. -/
def upCol (k : Fin 5632) : Fin 11264 := ⟨5632 + k.val, by have := k.isLt; omega⟩

/-- Row `r` of the tokens against column `col` of the projection matrix. -/
def proj (x : Mat 8192 2048) (w : Mat 2048 11264) (r : Fin 8192) (col : Fin 11264) : EReal :=
  ∑ h : Fin 2048, x (ix2 r h) * w (ix2 h col)

/-- The gated hidden activation of token `r` at hidden position `k`. -/
def hidden (x : Mat 8192 2048) (w : Mat 2048 11264) (r : Fin 8192) (k : Fin 5632) : EReal :=
  (proj x w r (gateCol k) * Ideal.logistic (proj x w r (gateCol k))) * proj x w r (upCol k)

/-- The layer's output. -/
def out (x : Mat 8192 2048) (w : Mat 2048 11264) (d : Mat 5632 2048) : Mat 8192 2048 := fun i =>
  ∑ k : Fin 5632, hidden x w (i 0) k * d (ix2 k (i 1))

/-- Position `k'` of run `j` among the hidden positions: `256 · j + k'`. -/
def runPos (j : Fin 22) (k' : Fin 256) : Fin 5632 := ⟨256 * j.val + k'.val, by have := j.isLt; have := k'.isLt; omega⟩

/-- Run `j`'s contribution to the output at `i`. -/
def runTerm (x : Mat 8192 2048) (w : Mat 2048 11264) (d : Mat 5632 2048) (i : (⟨2, ![8192, 2048]⟩ : Shape).Idx) (j : Fin 22) : EReal :=
  ∑ k' : Fin 256, hidden x w (i 0) (runPos j k') * d (ix2 (runPos j k') (i 1))

/-- The running total at `i` after the first `n` runs, from zero. -/
def running (x : Mat 8192 2048) (w : Mat 2048 11264) (d : Mat 5632 2048) (i : (⟨2, ![8192, 2048]⟩ : Shape).Idx) : ℕ → EReal
  | 0 => 0
  | n + 1 => running x w d i n + (if h : n < 22 then runTerm x w d i ⟨n, h⟩ else 0)

end Cert.Swiglu

end
-- ==== Proof.SpecSum.lean ====
/-
  The sum law of the gated feed-forward layer: adding the 22 runs' contributions to a running total that starts
  at zero gives the layer's output.

  The 5632 hidden positions are cut into 22 consecutive runs of 256: position `k` lies in run `k / 256` at place
  `k % 256`, and `(j, k') ↦ 256 · j + k'` is a bijection from the pairs (run, place) onto the positions.  The
  running total after `n` runs is the sum of the first `n` runs' contributions; after all 22 it is the double sum
  over (run, place), which the bijection carries to the single sum over the positions.  Addition of extended
  reals is commutative and associative, so these regroupings hold with no finiteness assumption.
-/
import proofs.«103557_j24970939859025_2_alg».proof.Proof.Spec

noncomputable section

namespace Cert.Swiglu

open Idealize.ShloMosaic Idealize.ShloMosaic.ValueIdx

/-- The pairs (run, place) correspond one to one to the hidden positions, by `(j, k') ↦ 256 · j + k'`, with
    inverse `k ↦ (k / 256, k % 256)`. -/
def runEquiv : Fin 22 × Fin 256 ≃ Fin 5632 where
  toFun p := runPos p.1 p.2
  invFun k := (⟨k.val / 256, by have := k.isLt; omega⟩, ⟨k.val % 256, by omega⟩)
  left_inv p := by
    obtain ⟨j, k'⟩ := p
    have hk := k'.isLt
    refine Prod.ext (Fin.ext ?_) (Fin.ext ?_)
    · show (256 * j.val + k'.val) / 256 = j.val
      omega
    · show (256 * j.val + k'.val) % 256 = k'.val
      omega
  right_inv k := by
    refine Fin.ext ?_
    show 256 * (k.val / 256) + k.val % 256 = k.val
    omega

/-- A sum over the hidden positions is the sum over the runs of the sums over the places of each run. -/
theorem sum_runs (g : Fin 5632 → EReal) :
    ∑ j : Fin 22, ∑ k' : Fin 256, g (runPos j k') = ∑ k : Fin 5632, g k := by
  rw [← Fintype.sum_equiv runEquiv (fun p : Fin 22 × Fin 256 => g (runPos p.1 p.2)) g (fun _ => rfl),
    Fintype.sum_prod_type]

/-- The running total after `n` runs is the sum of the first `n` runs' contributions (a run index from 22 on
    contributes nothing). -/
theorem running_eq_sum (x : Mat 8192 2048) (w : Mat 2048 11264) (d : Mat 5632 2048) (i : (⟨2, ![8192, 2048]⟩ : Shape).Idx) (n : ℕ) :
    running x w d i n = ∑ j ∈ Finset.range n, (if h : j < 22 then runTerm x w d i ⟨j, h⟩ else 0) := by
  induction n with
  | zero => rfl
  | succ n ih =>
    rw [Finset.sum_range_succ, ← ih]
    rfl

/-- After all 22 runs the running total is the layer's output. -/
theorem running_all (x : Mat 8192 2048) (w : Mat 2048 11264) (d : Mat 5632 2048) (i : (⟨2, ![8192, 2048]⟩ : Shape).Idx) :
    running x w d i 22 = out x w d i := by
  rw [running_eq_sum, Finset.sum_range]
  have hj : ∀ j : Fin 22, (if h : j.val < 22 then runTerm x w d i ⟨j.val, h⟩ else 0)
      = ∑ k' : Fin 256, hidden x w (i 0) (runPos j k') * d (ix2 (runPos j k') (i 1)) := fun j => by
    rw [dif_pos j.isLt]
    rfl
  rw [Finset.sum_congr rfl fun j _ => hj j]
  exact sum_runs fun k => hidden x w (i 0) k * d (ix2 k (i 1))

end Cert.Swiglu

end
-- ==== Proof.KernelIdealValue.lean ====
/-
  The gated feed-forward kernel's output, on the extended reals.

  What the output block's staging buffer holds after the body at grid position `n` (row tile `n / 22`, run `n % 22`)
  is, at entry `(p, q)`, the layer's running total after the first `n % 22 + 1` runs at row `1024 · (n / 22) + p`
  and column `q`: the first run of a row tile leaves zero plus the run's contribution, a later run adds its
  contribution to what the position before left, and a run's contribution, read off the four blocks entry by entry,
  is the sum over the run's 256 hidden positions of the gated hidden activation times the down matrix's entry. After
  a row tile's last run the total is the layer's output there, and that is what is written back.
-/
import proofs.«103557_j24970939859025_2_alg».proof.Proof.KernelIdealCases
import proofs.«103557_j24970939859025_2_alg».proof.Proof.KernelIdealBlocks
import proofs.«103557_j24970939859025_2_alg».proof.Proof.Payload
import proofs.«103557_j24970939859025_2_alg».proof.Proof.Spec
import proofs.«103557_j24970939859025_2_alg».proof.Proof.SpecSum
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)
open Cert.KernelIdeal Cert.KernelIdeal.Gen

variable (m : (ℓ : Loc nD τ sig) → Buf (Elt Ideal) ℓ)

/-! ## The three matrices as launched -/

/-- The token matrix. -/
abbrev Xm (c : Dev nD) : Cert.Swiglu.Mat 8192 2048 := m ((c : Thread nD τ).loc main_arg0)
/-- The projection matrix: gate half, then up half. -/
abbrev Wm (c : Dev nD) : Cert.Swiglu.Mat 2048 11264 := m ((c : Thread nD τ).loc main_arg1)
/-- The down matrix. -/
abbrev Dm (c : Dev nD) : Cert.Swiglu.Mat 5632 2048 := m ((c : Thread nD τ).loc main_arg2)

/-- The run of grid position `n`. -/
abbrev runOf (n : ℕ) : Fin 22 := ⟨n % 22, Nat.mod_lt _ (by decide)⟩

/-! ## The four input blocks of a point, at their vector types -/

/-- The token block of point `t`. -/
abbrev tokBlk (c : Dev nD) (t : Fin cfg0.N) : Vec Ideal S1024x2048 .bf16 := iblk m c 0 t
/-- The gate block of point `t`. -/
abbrev gateBlk (c : Dev nD) (t : Fin cfg0.N) : Vec Ideal S2048x256 .bf16 := iblk m c 1 t
/-- The up block of point `t`. -/
abbrev upBlk (c : Dev nD) (t : Fin cfg0.N) : Vec Ideal S2048x256 .bf16 := iblk m c 2 t
/-- The down block of point `t`. -/
abbrev downBlk (c : Dev nD) (t : Fin cfg0.N) : Vec Ideal S256x2048 .bf16 := iblk m c 3 t

/-! ## A run's contribution, read off the blocks -/

/-- The sum the body's payload forms over the four blocks of point `t`, at entry `(p, q)`, is run `t % 22`'s
    contribution to the layer's output at row `1024 · (t / 22) + p`, column `q`: each block entry is the matrix entry
    at the block's place, and the gate, up and down places of position `k'` of the run are those of hidden position
    `256 · (t % 22) + k'`. -/
theorem runTerm_blocks (c : Dev nD) (t : Fin cfg0.N) (p : Fin 1024) (q : Fin 2048) :
    (∑ k' : Fin 256, (((∑ h : Fin 2048, tokBlk m c t (ix2 p h) * gateBlk m c t (ix2 h k'))
          * Ideal.logistic (∑ h : Fin 2048, tokBlk m c t (ix2 p h) * gateBlk m c t (ix2 h k')))
          * (∑ h : Fin 2048, tokBlk m c t (ix2 p h) * upBlk m c t (ix2 h k')))
          * downBlk m c t (ix2 k' q))
      = Cert.Swiglu.runTerm (Xm m c) (Wm m c) (Dm m c) (ix2 ⟨1024 * (t.val / 22) + p.val, row_lt t p⟩ q) ⟨t.val % 22, Nat.mod_lt _ (by decide)⟩ := by
  unfold Cert.Swiglu.runTerm Cert.Swiglu.hidden Cert.Swiglu.proj
  refine Finset.sum_congr rfl fun k' _ => ?_
  have e0 : ∀ h : Fin 2048, tokBlk m c t (ix2 p h)
      = Xm m c (ix2 (⟨1024 * (t.val / 22) + p.val, row_lt t p⟩ : Fin 8192) h) :=
    fun h => (iblk0_apply m c t p h).trans (congrFun (V_v0 m c) _)
  have e1 : ∀ h : Fin 2048, gateBlk m c t (ix2 h k')
      = Wm m c (ix2 h (Cert.Swiglu.gateCol (Cert.Swiglu.runPos ⟨t.val % 22, Nat.mod_lt _ (by decide)⟩ k'))) :=
    fun h => ((iblk1_apply m c t h k').trans (congrFun (V_v1 m c) _)).trans
      (congrArg (fun col : Fin 11264 => Wm m c (ix2 h col)) (Fin.ext (by
        show 256 * (t.val % 22) + k'.val = 256 * (t.val % 22) + k'.val; rfl)))
  have e2 : ∀ h : Fin 2048, upBlk m c t (ix2 h k')
      = Wm m c (ix2 h (Cert.Swiglu.upCol (Cert.Swiglu.runPos ⟨t.val % 22, Nat.mod_lt _ (by decide)⟩ k'))) :=
    fun h => ((iblk2_apply m c t h k').trans (congrFun (V_v1 m c) _)).trans
      (congrArg (fun col : Fin 11264 => Wm m c (ix2 h col)) (Fin.ext (by
        show 5632 + 256 * (t.val % 22) + k'.val = 5632 + (256 * (t.val % 22) + k'.val); omega)))
  have e3 : downBlk m c t (ix2 k' q)
      = Dm m c (ix2 (Cert.Swiglu.runPos ⟨t.val % 22, Nat.mod_lt _ (by decide)⟩ k') q) :=
    ((iblk3_apply m c t k' q).trans (congrFun (V_v2 m c) _)).trans
      (congrArg (fun r : Fin 5632 => Dm m c (ix2 r q)) (Fin.ext (by
        show 256 * (t.val % 22) + k'.val = 256 * (t.val % 22) + k'.val; rfl)))
  rw [Finset.sum_congr rfl fun h _ => congrArg₂ (· * ·) (e0 h) (e1 h),
    Finset.sum_congr rfl fun h _ => congrArg₂ (· * ·) (e0 h) (e2 h), e3]

/-! ## The accumulator is the running total -/

/-- The running total's step at a run below 22: the total so far plus that run's contribution. -/
theorem running_succ (x : Cert.Swiglu.Mat 8192 2048) (w : Cert.Swiglu.Mat 2048 11264) (d : Cert.Swiglu.Mat 5632 2048)
    (i : (⟨2, ![8192, 2048]⟩ : Shape).Idx) (k : ℕ) (hk : k < 22) :
    Cert.Swiglu.running x w d i (k + 1) = Cert.Swiglu.running x w d i k + Cert.Swiglu.runTerm x w d i ⟨k, hk⟩ := by
  show Cert.Swiglu.running x w d i k + (if h : k < 22 then Cert.Swiglu.runTerm x w d i ⟨k, h⟩ else 0) = _
  rw [dif_pos hk]

/-- What the output block's staging buffer holds after the body at position `n`, at entry `(p, q)`: the running total
    after the first `n % 22 + 1` runs, at row `1024 · (n / 22) + p` and column `q`. By induction on the position: the
    first run of a row tile leaves zero plus its contribution; a later run adds its contribution to what the position
    before left, which is in the same row tile, one run earlier. -/
theorem totalAt_apply (c : Dev nD) : ∀ (n : ℕ) (h : n < cfg0.N) (p : Fin 1024) (q : Fin 2048),
    totalAt m c n h (ix2 p q)
      = Cert.Swiglu.running (Xm m c) (Wm m c) (Dm m c) (ix2 (⟨1024 * (n / 22) + p.val, row_lt ⟨n, h⟩ p⟩ : Fin 8192) q) (n % 22 + 1) := by
  intro n
  induction n using Nat.strong_induction_on with
  | _ n ih =>
    intro h p q
    have hlt : n % 22 < 22 := Nat.mod_lt n (by decide)
    rw [running_succ _ _ _ _ _ hlt]
    by_cases h0 : n % 22 = 0
    · refine (congrFun (totalAt_first m c ⟨n, h⟩ h0) (ix2 p q)).trans ?_
      rw [outFirst_eq]
      refine (Cert.KernelIdeal.Payload.pay2_apply _ _ _ _ _ p q).trans ?_
      refine congrArg₂ (· + ·) ?_ (runTerm_blocks m c ⟨n, h⟩ p q)
      refine (Cert.KernelIdeal.Payload.pay1_apply (ix2 p q)).trans ?_
      rw [h0]
      rfl
    · have hn1 : n - 1 < n := by omega
      have hk : (n - 1) % 22 + 1 = n % 22 := by omega
      refine (congrFun (totalAt_next m c ⟨n, h⟩ h0) (ix2 p q)).trans ?_
      rw [outNext_eq]
      refine (Cert.KernelIdeal.Payload.pay2_apply _ _ _ _ _ p q).trans ?_
      refine congrArg₂ (· + ·) ?_ (runTerm_blocks m c ⟨n, h⟩ p q)
      refine (ih (n - 1) hn1 _ p q).trans ?_
      exact congrArg₂ (fun (r : Fin 8192) (k : ℕ) => Cert.Swiglu.running (Xm m c) (Wm m c) (Dm m c) (ix2 r q) k)
        (Fin.ext (by show 1024 * ((n - 1) / 22) + p.val = 1024 * (n / 22) + p.val; omega)) hk

/-! ## What is written back, and the output array at the end -/

/-- At a point that writes the output block back — the last run of its row tile — the block written is the layer's
    output read through the point's block: the staging buffer holds the running total after all 22 runs. -/
theorem flushed_eq (c : Dev nD) (t : Fin cfg0.N) (hf : (cfg0.win 4).flush t = true) :
    (dats m 0 c).flushed 4 t
      = ((cfg0.win 4).blk t).view.read (Elt Ideal) (Cert.Swiglu.out (Xm m c) (Wm m c) (Dm m c)) := by
  have h21 : t.val % 22 = 21 := (flush0_4 t).mp hf
  show (cfg0.win 4).cut (grid0.coords t) ((dats m 0 c).after 4 t) = _
  rw [after_4]
  funext y
  obtain ⟨p, q, rfl⟩ : ∃ (p : Fin 1024) (q : Fin 2048), y = ix2 p q := ⟨_, _, eq_ix2 (n0 := 1024) (n1 := 2048) y⟩
  have hb := blk4_read_apply (F := Ideal) c t (Cert.Swiglu.out (Xm m c) (Wm m c) (Dm m c)) p q
  refine Eq.trans ?_ hb.symm
  show totalAt m c t.val t.isLt (ix2 p q) = _
  rw [totalAt_apply m c t.val t.isLt p q, h21]
  exact Cert.Swiglu.running_all _ _ _ _

/-- The output array ends holding the layer's output: the written-back blocks cover it. -/
theorem final (c : Dev nD) : (dats m 0 c).arrAt 4 cfg0.N = Cert.Swiglu.out (Xm m c) (Wm m c) (Dm m c) :=
  (dats m 0 c).arrAt_eq_of_cover 4 _ (flushed_eq m c) (cover4 c)

end Cert.KernelIdeal.Frm

end
-- ==== Proof.LibHostForms.lean ====
/-
  Host spellings of a kernel's vector operations, on the extended reals.

  A jnp reference lowered for the host and a Pallas body lowered for the TensorCore spell the same
  mathematics with different operations.  Each lemma here says that one host spelling IS the kernel's
  operation, as whole vectors at the ideal instance (every float an extended real, every operation
  exact), for any shapes:

    * a `dot_general` is the matrix product accumulated into the zero vector;
    * `1 / (1 + exp (-x))`, with both ones broadcast from a scalar constant, is the logistic function;
    * the host's hyperbolic tangent is the kernel's;
    * a scalar zero constant broadcast to a shape is the zero splat;
    * a vector `[a]` broadcast along a new leading unit axis is that vector reshaped to `[1, a]`.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibHostForms

open Idealize.ShloMosaic Idealize.ShloMosaic.ValueIdx

/-- The f32 word `0x3F800000` denotes the real number one. -/
theorem ofBits_one_f32 : Ideal.ofBits .f32 0x3F800000#32 = 1 := by
  simp [Ideal.ofBits, Ideal.ieee, -EReal.coe_mul]; norm_num

/-- A host `dot_general` is the kernel's matrix product into the zero accumulator: at every output
    index both are the sum over the contracted index of the products of the operands' entries, the
    zero accumulator adding nothing.  The precision attributes play no part on the extended reals. -/
theorem hostDot_eq_matmul_zero {sl sr so : Shape} {φ₁ φ₂ : FTy} (d : DotDims sl sr so)
    (p q : Option ContractPrecision) (l : FVec Ideal sl φ₁) (r : FVec Ideal sr φ₂) :
    Host.dotGeneral d p l r = matmul d q l r (constant (F := Ideal) so .f32 0x00000000#32) := by
  funext j
  simp only [Host.dotGeneral, matmul]
  rw [Ideal.dotGeneral_apply, Ideal.matmul_constant_zero_apply]

/-- jax's expansion of the logistic function on the host, `1 / (1 + exp (-x))` with each one a scalar
    constant broadcast to the operand's shape, is the kernel's one logistic operation: on the extended
    reals the logistic function is DEFINED as that quotient (with `exp ⊥ = 0`, `exp ⊤ = ⊤`, `1 / ⊤ = 0`),
    so the identity holds at every extended real, infinite ones included. -/
theorem hostLogistic_eq {S0 S : Shape} (dims : Fin S0.rank → Fin S.rank) (hb : S0.BroadcastsInDim S dims)
    (x : FVec Ideal S .f32) :
    Host.divf (broadcastInDim S dims hb (constant (F := Ideal) S0 .f32 0x3F800000#32))
        (addf (broadcastInDim S dims hb (constant (F := Ideal) S0 .f32 0x3F800000#32)) (Host.exp (Host.negf x)))
      = logistic x := by
  funext i
  show Ideal.div (Ideal.ofBits .f32 0x3F800000#32) (Ideal.ofBits .f32 0x3F800000#32 + Ideal.exp (-(x i)))
    = Ideal.logistic (x i)
  rw [ofBits_one_f32]
  rfl

/-- The host's hyperbolic tangent is the kernel's: one function of an extended real. -/
theorem hostTanh_eq {S : Shape} {φ : FTy} (x : FVec Ideal S φ) : Host.tanh x = tanh x := rfl

/-- A scalar zero constant broadcast to a shape is the zero splat of that shape. -/
theorem bcastZero_eq {S0 S : Shape} (dims : Fin S0.rank → Fin S.rank) (hb : S0.BroadcastsInDim S dims) :
    broadcastInDim S dims hb (constant (F := Ideal) S0 .f32 0x00000000#32)
      = broadcast S (Scalar.ofBits (F := Ideal) .f32 0x00000000#32) := rfl

/-- A vector `[a]` broadcast to `[1, a]` along a new leading axis (the output's axis 1 is the
    operand's axis 0) is the vector reshaped to `[1, a]`: both hold, at `(0, i)`, the operand's
    entry `i`. -/
theorem bcastRow_eq_shapeCast {α : Type} {a : ℕ} (x : (⟨1, ![a]⟩ : Shape).Idx → α)
    (hb : (⟨1, ![a]⟩ : Shape).BroadcastsInDim ⟨2, ![1, a]⟩ ![1])
    (hs : (⟨1, ![a]⟩ : Shape).ShapeCasts ⟨2, ![1, a]⟩) :
    broadcastInDim ⟨2, ![1, a]⟩ ![1] hb x = shapeCast ⟨2, ![1, a]⟩ x hs := by
  funext j
  obtain ⟨u, i, rfl⟩ : ∃ (u : Fin 1) (i : Fin a), j = ix2 u i := ⟨j 0, j 1, eq_ix2 j⟩
  rw [shapeCast_a_1a_apply]
  refine broadcastInDim_apply _ hb x _ (ix1 i) (fun b => ?_)
  match b with
  | ⟨0, _⟩ =>
    show i.val = if a = 1 then 0 else i.val
    split
    · next h => have := i.isLt; omega
    · rfl

end Cert.LibHostForms

end
-- ==== Proof.RefValue.lean ====
/-
  The reference program's result is the gated feed-forward layer's output.

  The reference computes, one whole array at a time: the product of the tokens with the projection matrix; the
  gate half and the up half of that product (two column slices); the gate half times `1 / (1 + exp (-gate))`,
  the two ones broadcast from a scalar constant; that times the up half; and the product of the result with the
  down matrix.  Read at an index, each array is the corresponding term of the layer's definition: the quotient is
  the logistic function of the gate entry, the slices read the product at the gate column and the up column of
  the hidden position, and each matrix product is the sum over the contracted index.
-/
import proofs.«103557_j24970939859025_2_alg».proof.Proof.Gen.ReferenceIdeal.Read
import proofs.«103557_j24970939859025_2_alg».proof.Proof.Spec
import proofs.«103557_j24970939859025_2_alg».proof.Proof.LibHostForms

noncomputable section

namespace Cert.ReferenceIdeal.RefValue

open Cert.ReferenceIdeal Cert.ReferenceIdeal.Gen Cert.ReferenceIdeal.Read Idealize.ShloMosaic Idealize.ShloMosaic.ValueIdx

/-- The factor the reference multiplies the gate half by, `1 / (1 + exp (-gate))` with both ones a broadcast
    scalar constant, is the logistic function of the gate half, as whole arrays. -/
theorem gate_factor (x0 : (⟨S8192x2048, .f32⟩ : BufTy).Contents (Elt Ideal)) (x1 : (⟨S2048x11264, .f32⟩ : BufTy).Contents (Elt Ideal)) :
    val_main_call0_v5 (F := Ideal) x0 x1
      = logistic (F := Ideal) (s := S8192x5632) (φ := .f32) (val_main_v1 (F := Ideal) x0 x1) := by
  unfold val_main_call0_v5 val_main_call0_v4 val_main_call0_v3 val_main_call0_v2 val_main_call0_v1 val_main_call0_v0
    val_main_call0_cst val_main_call0_cst_0
  exact Cert.LibHostForms.hostLogistic_eq _ _ _

/-- The first matrix product at row `r`, column `c` is the projection `∑ h, x (r, h) · w (h, c)`. -/
theorem v0_at (x0 : (⟨S8192x2048, .f32⟩ : BufTy).Contents (Elt Ideal)) (x1 : (⟨S2048x11264, .f32⟩ : BufTy).Contents (Elt Ideal))
    (r : Fin 8192) (c : Fin 11264) :
    val_main_v0 (F := Ideal) x0 x1 (ix2 r c) = Cert.Swiglu.proj x0 x1 r c := by
  rw [val_main_v0_apply]
  unfold Cert.Swiglu.proj
  refine Finset.sum_congr rfl fun h _ => ?_
  have el : lidx_main_v0 (ix2 r c) h = ix2 r h := funext fun a => Fin.ext (by
    match a with
    | ⟨0, _⟩ => rfl
    | ⟨1, _⟩ => rfl)
  have er : ridx_main_v0 (ix2 r c) h = ix2 h c := funext fun a => Fin.ext (by
    match a with
    | ⟨0, _⟩ => rfl
    | ⟨1, _⟩ => rfl)
  rw [el, er]

/-- The array the second matrix product contracts, at token `r` and hidden position `k`, is the gated hidden
    activation: the gate slice reads the product at column `k`, the up slice at column `5632 + k`, and the
    gate entry is multiplied first by its logistic value and then by the up entry. -/
theorem v4_at (x0 : (⟨S8192x2048, .f32⟩ : BufTy).Contents (Elt Ideal)) (x1 : (⟨S2048x11264, .f32⟩ : BufTy).Contents (Elt Ideal))
    (r : Fin 8192) (k : Fin 5632) :
    val_main_v4 (F := Ideal) x0 x1 (ix2 r k) = Cert.Swiglu.hidden x0 x1 r k := by
  rw [val_main_v4_apply, val_main_v3_apply, gate_factor]
  show (val_main_v1 (F := Ideal) x0 x1 (ix2 r k) * Ideal.logistic (val_main_v1 (F := Ideal) x0 x1 (ix2 r k)))
      * val_main_v2 (F := Ideal) x0 x1 (ix2 r k) = _
  rw [val_main_v1_apply, val_main_v2_apply]
  have e1 : idx_main_v1 (ix2 r k) = ix2 r (Cert.Swiglu.gateCol k) := funext fun a => Fin.ext (by
    match a with
    | ⟨0, _⟩ => rfl
    | ⟨1, _⟩ => rfl)
  have e2 : idx_main_v2 (ix2 r k) = ix2 r (Cert.Swiglu.upCol k) := funext fun a => Fin.ext (by
    match a with
    | ⟨0, _⟩ => rfl
    | ⟨1, _⟩ => rfl)
  rw [e1, e2, v0_at, v0_at]
  rfl

/-- The reference's result is the layer's output: at `i = (r, c)` it is the sum over the hidden positions `k` of
    the gated hidden activation of token `r` at `k` times the down matrix's entry `(k, c)`. -/
theorem ref_is_out (x0 : (⟨S8192x2048, .f32⟩ : BufTy).Contents (Elt Ideal)) (x1 : (⟨S2048x11264, .f32⟩ : BufTy).Contents (Elt Ideal))
    (x2 : (⟨S5632x2048, .f32⟩ : BufTy).Contents (Elt Ideal)) :
    Cert.ReferenceIdeal.Read.val_main_v5 (F := Ideal) x0 x1 x2 = Cert.Swiglu.out x0 x1 x2 := by
  funext i
  obtain ⟨r, c, rfl⟩ : ∃ (r : Fin 8192) (c : Fin 2048), i = ix2 r c := ⟨i 0, i 1, eq_ix2 i⟩
  rw [val_main_v5_apply]
  show _ = ∑ k : Fin 5632, Cert.Swiglu.hidden x0 x1 r k * x2 (ix2 k c)
  refine Finset.sum_congr rfl fun k _ => ?_
  have el : lidx_main_v5 (ix2 r c) k = ix2 r k := funext fun a => Fin.ext (by
    match a with
    | ⟨0, _⟩ => rfl
    | ⟨1, _⟩ => rfl)
  have er : ridx_main_v5 (ix2 r c) k = ix2 k c := funext fun a => Fin.ext (by
    match a with
    | ⟨0, _⟩ => rfl
    | ⟨1, _⟩ => rfl)
  rw [el, er, v4_at]

end Cert.ReferenceIdeal.RefValue

end
-- ==== Proof.lean ====
/-
  A gated feed-forward layer as one pipelined kernel against its plain reference, on the extended reals.

  Both programs compute, for tokens `x` (8192 × 2048), a projection matrix `w` (2048 × 11264: a gate half and an up
  half of 5632 columns each) and a down matrix `d` (5632 × 2048),

      out (r, c) = ∑ k < 5632, (g r k · logistic (g r k) · u r k) · d (k, c),   g r k = ∑ h, x (r, h) · w (h, k),   u r k = ∑ h, x (r, h) · w (h, 5632 + k).

  The reference does it with two whole matrix products and spells the logistic function as `1 / (1 + exp (-g))`. The
  kernel walks an 8 × 22 grid: for each tile of 1024 token rows it visits the 22 runs of 256 hidden positions in order,
  computes the run's gate and up blocks, and adds the run's contribution to the tile's output block, which it zeroes
  at the first run and writes back after the last. On the extended reals a change of float format is the identity,
  the matrix unit's product into a zero accumulator is the plain sum, the two spellings of the logistic function are one
  function, and addition is commutative and associative, so the 22 partial sums added in order are the one sum over
  5632 positions. No finiteness of the inputs is used.

  The two kernel programs' frames are proved from the pipeline's launch rule for windows that share an array (the gate
  block and the up block are cut from the one projection matrix); the reference's frame is its run.
-/
import proofs.«103557_j24970939859025_2_alg».proof.Defs
import proofs.«103557_j24970939859025_2_alg».proof.Proof.Gen.Kernel
import proofs.«103557_j24970939859025_2_alg».proof.Proof.Gen.KernelIdeal
import proofs.«103557_j24970939859025_2_alg».proof.Proof.Gen.ReferenceIdeal
import proofs.«103557_j24970939859025_2_alg».proof.Proof.Gen.Pre_finite_inputs
import proofs.«103557_j24970939859025_2_alg».proof.Proof.Gen.ReferenceIdeal.Run
import proofs.«103557_j24970939859025_2_alg».proof.Proof.Gen.ReferenceIdeal.Read
import proofs.«103557_j24970939859025_2_alg».proof.Proof.KernelRun
import proofs.«103557_j24970939859025_2_alg».proof.Proof.KernelIdealRun
import proofs.«103557_j24970939859025_2_alg».proof.Proof.KernelIdealValue
import proofs.«103557_j24970939859025_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its three arguments unchanged. -/
theorem frame_kernel : Cert.frame_Kernel := fun m ρ _ => Cert.Kernel.Frm.frame (F := Bits) m ρ

/-- So does the kernel read on the extended reals. -/
theorem frame_kernelIdeal : Cert.frame_KernelIdeal := fun m ρ _ => Cert.KernelIdeal.Frm.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments both programs end with the layer's output in their result array:
    the kernel's accumulated 22 runs are the reference's one sum. -/
theorem algebraic : Cert.algebraic_KernelIdeal_ReferenceIdeal := by
  intro m ρ m' ρ' _ hagree
  refine ⟨fun c => Cert.Swiglu.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c =>
      ⟨((h c).1 4).trans (Cert.KernelIdeal.Frm.final m c),
       ((h c).2 Cert.KernelIdeal.main_arg0 (Pipeline.mem_restRefs_of Cert.KernelIdeal.main_arg0 (by decide) (by decide))).trans (Cert.KernelIdeal.Frm.V_main_arg0 m c),
       ((h c).2 Cert.KernelIdeal.main_arg1 (Pipeline.mem_restRefs_of Cert.KernelIdeal.main_arg1 (by decide) (by decide))).trans (Cert.KernelIdeal.Frm.V_main_arg1 m c),
       ((h c).2 Cert.KernelIdeal.main_arg2 (Pipeline.mem_restRefs_of Cert.KernelIdeal.main_arg2 (by decide) (by decide))).trans (Cert.KernelIdeal.Frm.V_main_arg2 m c)⟩)
      (Cert.KernelIdeal.Frm.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.ref_is_out, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
